-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024 : Shape := ⟨2, ![32, 1024]⟩
abbrev S1024x1024 : Shape := ⟨2, ![1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32x1024x1024 .f32) (main_arg1 : FVec F S32x1024 .f32) (main_arg2 : FVec F S1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S32x1024x1024 : Shape := ⟨3, ![32, 1024, 1024]⟩
abbrev S32x1024 : Shape := ⟨2, ![32, 1024]⟩
abbrev S1024x1024 : Shape := ⟨2, ![1024, 1024]⟩
abbrev S1x1024x1024 : Shape := ⟨3, ![1, 1024, 1024]⟩
abbrev S1x1024 : Shape := ⟨2, ![1, 1024]⟩
abbrev S1024 : Shape := ⟨1, ![1024]⟩

abbrev nBuf : Space → Nat
  | .hbm => 4
  | .vmem => 6
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .f32⟩
  | .hbm, ⟨2, _⟩ => ⟨S1024x1024, .f32⟩
  | .hbm, ⟨3, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S32x1024, .f32⟩
  | .local _ .vmem, ⟨3, _⟩ => ⟨S1024x1024, .f32⟩
  | .local _ .vmem, ⟨4, _⟩ => ⟨S1x1024x1024, .f32⟩
  | .local _ .vmem, ⟨5, _⟩ => ⟨S1x1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  h_S1x1024 : 0 < S1x1024.numel
  shapeCasts_S1x1024_S1024 : S1x1024.ShapeCasts S1024
  inb_S1024x1024_S1024x1024_0_0 : ∀ a, (![0, 0] : Fin 2 → Nat) a + S1024x1024.size a ≤ S1024x1024.size a
  h_S1024x1024 : 0 < S1024x1024.numel
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  broadcasts_S1x1024_S1024x1024 : S1x1024.Broadcasts S1024x1024
  shapeCasts_S1024x1024_S1x1024x1024 : S1024x1024.ShapeCasts S1x1024x1024
  dot_S1x1024_S1024x1024_S1x1024_1_0_0_1_n_n_wf : DotDims.WF S1x1024 S1024x1024 S1x1024 [1] [0] [0] [1] [] []
  dot_S1024x1024_S1024x1024_S1024x1024_1_0_0_1_n_n_wf : DotDims.WF S1024x1024 S1024x1024 S1024x1024 [1] [0] [0] [1] [] []
  hrank0 : 0 < grid0.rank
  k0_off1_inb : ∀ i : grid0.Coords, ∀ a, (k0_off1 i) a + S1x1024.size a ≤ S32x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S32x1024.size a
  hwx0_1 : ∀ i : grid0.Coords, EltTy.bits .f32 = 32 ∨ (Rect.block (s := S32x1024) S32x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S32x1024x1024.size a
  hwx0_3 : ∀ i : grid0.Coords, EltTy.bits .f32 = 32 ∨ (Rect.block (s := S32x1024x1024) S1x1024x1024.size (cc0_transform_3 i) (hinb0_3 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x1024 : Shape := ⟨2, ![32, 1024]⟩
abbrev S1024x1024 : Shape := ⟨2, ![1024, 1024]⟩
abbrev S_ : Shape := ⟨0, ![]⟩
abbrev S32x1x1024 : Shape := ⟨3, ![32, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .f32⟩
  | .hbm, ⟨2, _⟩ => ⟨S1024x1024, .f32⟩
  | .hbm, ⟨3, _⟩ => ⟨S_, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S1024x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1x1024, .f32⟩
  | .hbm, ⟨14, _⟩ => ⟨S32x1024x1024, .f32⟩
  | .hbm, ⟨15, _⟩ => ⟨S32x1024x1024, .f32⟩
  | .hbm, ⟨16, _⟩ => ⟨S32x1024x1024, .f32⟩
  | .hbm, ⟨17, _⟩ => ⟨S32x1x1024, .f32⟩
  | .hbm, ⟨18, _⟩ => ⟨S32x1024x1024, .f32⟩
  | .hbm, ⟨19, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  bcast_S_S32x1024 : S_.BroadcastsInDim S32x1024 (![] : Fin 0 → Fin S32x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  dot_S32x1024_S1024x1024_S32x1024_1_0_0_1_n_n_wf : DotDims.WF S32x1024 S1024x1024 S32x1024 [1] [0] [0] [1] [] []
  dot_S32x1024x1024_S1024x1024_S32x1024x1024_2_0_01_1_n_n_wf : DotDims.WF S32x1024x1024 S1024x1024 S32x1024x1024 [2] [0] [0, 1] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024x1024_S1024x1024_S32x1024x1024_2_0_01_1_n_n : DotDims S32x1024x1024 S1024x1024 S32x1024x1024 where
  lhsContracting := [2]
  rhsContracting := [0]
  lhsNonContracting := [0, 1]
  rhsNonContracting := [1]
  lhsBatch := []
  rhsBatch := []
  wf := dot_S32x1024x1024_S1024x1024_S32x1024x1024_2_0_01_1_n_n_wf

class Facts : Prop extends Facts₀ where

variable [Facts]
-- ==== Proof.Stored.lean ====
/-
  What the body leaves in the output's staging buffer at one grid point.

  The body makes one store, of the whole `1 × 1024 × 1024` block, so the buffer ends holding that store's value: the
  body's arithmetic applied to what its three loads read. The loads of the weight and of the input block read the
  whole staging buffers; the load of the modulation reads, from the resident `32 × 1024` array, the one row whose
  number is the grid coordinate.
-/
import proofs.«125575_j39444979646820_2_alg».proof.Proof.Gen.KernelIdeal.Frame
import Idealize.ShloMosaic.Lib.Pipeline.Value
import Idealize.ShloMosaic.Lib.Tactic

noncomputable section

namespace Cert.ModLinear.Body

open Cert.KernelIdeal Cert.KernelIdeal.Gen Idealize.ShloMosaic Idealize.ShloMosaic.TcCoe Idealize.SL.Sem

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The `1 × 1024` rectangle of the resident modulation array that the body loads at grid coordinates `i`: row `i 0`. -/
abbrev rowRect (i : grid0.Coords) : Rect S32x1024 :=
  Rect.unit (s := S32x1024) (k0_off1 i) S1x1024.size (k0_off1_inb i)

/-- After the body at grid coordinates `i`, on staging buffers holding the input block `xb`, the modulation array
    `y` and the weight `w`, the output's staging buffer holds the body's arithmetic of row `i 0` of `y`, of `w` and
    of `xb`. -/
theorem stored_eq (c : Dev nD) (i : grid0.Coords) (a1 : Memref sig .tc .vmem S1x1024x1024 .f32) (h1 : a1.IsWhole)
    (a2 : Memref sig .tc .vmem S32x1024 .f32) (h2 : a2.IsWhole) (a3 : Memref sig .tc .vmem S1024x1024 .f32)
    (h3 : a3.IsWhole) (a4 : Memref sig .tc .vmem S1x1024x1024 .f32) (h4 : a4.IsWhole)
    (xb : Vec F S1x1024x1024 .f32) (y : Vec F S32x1024 .f32) (w : Vec F S1024x1024 .f32) :
    out0_A_3 c i a1 h1 a2 h2 a3 h3 a4 h4 xb y w = k0_pay1 (View.ld y (rowRect i)) w xb := by
  unfold out0_A_3
  rw [View.read_writes_eq_canon _ _ _ (cover0_A_3 c i a1 h1 a2 h2 a3 h3 a4 h4 xb y w)]
  unfold kernelRun0_A
  dsimp only
  rw [View.canon_unit_zero zeros3]
  simp only [View.readAt_eq_ld, h1.read_unread, h2.read_unread, h3.read_unread,
    View.ld_unit_zero (S := S1x1024x1024) zeros3, View.ld_unit_zero (S := S1024x1024) zeros2]

end Cert.ModLinear.Body

end
-- ==== Proof.Spec.lean ====
/-
  The function both programs compute, as one scalar expression per output entry.

  For a batch `b`, a row `s` and an output feature `o`, with `c = 1/32` the modulation scale and
  `ε` the demodulation offset (both float literals kept as their words),

      out[b, s, o] = (∑ₖ (x[b, s, k] · (y[b, k] · c)) · w[k, o])
                       · rsqrt ((∑ₖ ((y[b, k] · c) · (y[b, k] · c)) · (w[k, o] · w[k, o])) + ε)

  over the extended reals. The entry depends on row `(b, s)` of `x`, row `b` of `y` and column `o` of `w` only,
  so it is stated once over those three sequences (`entry`) and then read off the arrays (`modulated`).
-/
import Idealize.ShloMosaic.PureOps.Ideal
import Idealize.ShloMosaic.PureOps.Ideal.Laws
import Idealize.ShloMosaic.Lib.ValueIdx

noncomputable section

namespace Cert.ModLinear

open Idealize.ShloMosaic Idealize.ShloMosaic.ValueIdx

/-- The modulation scale `1/√1024 = 1/32`, as the float word both programs carry. -/
abbrev scale : EReal := Ideal.ofBits .f32 0x3D000000#32

/-- The demodulation offset (the float nearest `1e-8`), as the float word both programs carry. -/
abbrev offset : EReal := Ideal.ofBits .f32 0x322BCC77#32

/-- One output entry from a row `xr` of the input, a row `yr` of the modulation and a column `wc` of the weight:
    the modulated product `∑ₖ (xr k · (yr k · c)) · wc k` times the demodulation factor
    `rsqrt (∑ₖ (yr k · c)² · (wc k)² + ε)`. -/
def entry (xr yr wc : Fin 1024 → EReal) : EReal :=
  (∑ k : Fin 1024, (xr k * (yr k * scale)) * wc k)
    * Ideal.rsqrt ((∑ k : Fin 1024, ((yr k * scale) * (yr k * scale)) * (wc k * wc k)) + offset)

/-- The whole result: entry `(b, s, o)` is `entry` of row `(b, s)` of `x`, row `b` of `y` and column `o` of `w`. -/
def modulated (x : (⟨3, ![32, 1024, 1024]⟩ : Shape).Idx → EReal) (y : (⟨2, ![32, 1024]⟩ : Shape).Idx → EReal)
    (w : (⟨2, ![1024, 1024]⟩ : Shape).Idx → EReal) : (⟨3, ![32, 1024, 1024]⟩ : Shape).Idx → EReal :=
  fun i => entry (fun k => x (ix3 (i 0) (i 1) k)) (fun k => y (ix2 (i 0) k)) (fun k => w (ix2 k (i 2)))

theorem modulated_apply (x : (⟨3, ![32, 1024, 1024]⟩ : Shape).Idx → EReal) (y : (⟨2, ![32, 1024]⟩ : Shape).Idx → EReal)
    (w : (⟨2, ![1024, 1024]⟩ : Shape).Idx → EReal) (b : Fin 32) (s o : Fin 1024) :
    modulated x y w (ix3 b s o)
      = entry (fun k => x (ix3 b s k)) (fun k => y (ix2 b k)) (fun k => w (ix2 k o)) := rfl

end Cert.ModLinear

end
-- ==== Proof.Payload.lean ====
/-
  The kernel body's arithmetic, read entry by entry.

  At one grid point the body holds a row `yr` of the modulation (as a `1 × 1024` block), the whole weight `w` and one
  `1 × 1024 × 1024` block `xb` of the input. It scales the row by `c`, squares it and contracts it with the squared
  weight (a `1 × 1024` by `1024 × 1024` product into a zero accumulator), adds `ε` and takes the reciprocal square
  root; it multiplies the block by the scaled row broadcast over rows, contracts with the weight, and multiplies by
  the factor broadcast over rows. A matrix product into the zero accumulator is the plain sum over the contraction
  index; the shape casts only add or drop the leading unit axis; the broadcasts repeat the one row. So entry
  `(0, s, o)` of what the body stores is `entry` of row `s` of the block, the modulation row and column `o` of the
  weight.
-/
import proofs.«125575_j39444979646820_2_alg».proof.Proof.Gen.KernelIdeal.Skeleton
import proofs.«125575_j39444979646820_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ModLinear.Body

open Cert.KernelIdeal Cert.KernelIdeal.Gen Idealize.ShloMosaic Idealize.ShloMosaic.ValueIdx Cert.ModLinear

/-- The left operand's row coordinate at an output index is the output's row coordinate. -/
theorem norm_product_apply_lhs0 (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide),
    dif_pos (show (0 : Fin S1x1024.rank) ∈ dot_S1x1024_S1024x1024_S1x1024_1_0_0_1_n_n.lhsNonContracting by decide)]
  rfl

/-- The right operand's column coordinate at an output index is the output's column coordinate. -/
theorem norm_product_apply_rhs1 (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide),
    dif_pos (show (1 : Fin S1024x1024.rank) ∈ dot_S1x1024_S1024x1024_S1x1024_1_0_0_1_n_n.rhsNonContracting by decide)]
  rfl

/-- The `1 × 1024` by `1024 × 1024` product into the zero accumulator, at `(r, o)`: the sum over `k` of the row at `k` times the matrix at `(k, o)`. -/
theorem norm_product_apply (A : FVec Ideal S1x1024 .f32) (B : FVec Ideal S1024x1024 .f32) (r : Fin 1) (o : Fin 1024) :
    matmul dot_S1x1024_S1024x1024_S1x1024_1_0_0_1_n_n (some .fp32) A B (constant (F := Ideal) S1x1024 .f32 0x00000000#32) (ix2 r o)
      = ∑ k : Fin 1024, A (ix2 r k) * B (ix2 k o) := by
  simp only [matmul]
  rw [Ideal.matmul_constant_zero_apply, ← Equiv.sum_comp (contrEquiv1 dot_S1x1024_S1024x1024_S1x1024_1_0_0_1_n_n 1024 rfl rfl).symm]
  refine Finset.sum_congr rfl fun k _ => ?_
  have hk := contrEquiv1_symm_val dot_S1x1024_S1024x1024_S1x1024_1_0_0_1_n_n 1024 rfl rfl k
  have el : dot_S1x1024_S1024x1024_S1x1024_1_0_0_1_n_n.lhsIdx (ix2 r o) ((contrEquiv1 dot_S1x1024_S1024x1024_S1x1024_1_0_0_1_n_n 1024 rfl rfl).symm k) = ix2 r k :=
    funext fun a => Fin.ext (by
      match a with
      | ⟨0, _⟩ => exact norm_product_apply_lhs0 _ _
      | ⟨1, _⟩ => exact (dot_S1x1024_S1024x1024_S1x1024_1_0_0_1_n_n.lhsIdx_val_of_single rfl _ _).trans hk)
  have er : dot_S1x1024_S1024x1024_S1x1024_1_0_0_1_n_n.rhsIdx (ix2 r o) ((contrEquiv1 dot_S1x1024_S1024x1024_S1x1024_1_0_0_1_n_n 1024 rfl rfl).symm k) = ix2 k o :=
    funext fun a => Fin.ext (by
      match a with
      | ⟨0, _⟩ => exact (dot_S1x1024_S1024x1024_S1x1024_1_0_0_1_n_n.rhsIdx_val_of_single rfl _ _).trans hk
      | ⟨1, _⟩ => exact norm_product_apply_rhs1 _ _)
  rw [el, er]

/-- The left operand's row coordinate at an output index is the output's row coordinate. -/
theorem main_product_apply_lhs0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The right operand's column coordinate at an output index is the output's column coordinate. -/
theorem main_product_apply_rhs1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The `1024 × 1024` by `1024 × 1024` product into the zero accumulator, at `(s, o)`: the sum over `k` of the left matrix at `(s, k)` times the right at `(k, o)`. -/
theorem main_product_apply (A : FVec Ideal S1024x1024 .f32) (B : FVec Ideal S1024x1024 .f32) (r : Fin 1024) (o : Fin 1024) :
    matmul dot_S1024x1024_S1024x1024_S1024x1024_1_0_0_1_n_n (some .fp32) A B (constant (F := Ideal) S1024x1024 .f32 0x00000000#32) (ix2 r o)
      = ∑ k : Fin 1024, A (ix2 r k) * B (ix2 k o) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r o) ((contrEquiv1 dot_S1024x1024_S1024x1024_S1024x1024_1_0_0_1_n_n 1024 rfl rfl).symm k) = ix2 r k :=
    funext fun a => Fin.ext (by
      match a with
      | ⟨0, _⟩ => exact main_product_apply_lhs0 _ _
      | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r o) ((contrEquiv1 dot_S1024x1024_S1024x1024_S1024x1024_1_0_0_1_n_n 1024 rfl rfl).symm k) = ix2 k o :=
    funext fun a => Fin.ext (by
      match a with
      | ⟨0, _⟩ => exact (dot_S1024x1024_S1024x1024_S1024x1024_1_0_0_1_n_n.rhsIdx_val_of_single rfl _ _).trans hk
      | ⟨1, _⟩ => exact main_product_apply_rhs1 _ _)
  rw [el, er]

/-- The pointwise reciprocal square root, at an index. -/
theorem rsqrt_apply {S : Shape} (v : FVec Ideal S .f32) (i : S.Idx) : rsqrt v i = Ideal.rsqrt (v i) := rfl

/-- Entry `(u, s, o)` of the value the body stores is `entry` of row `s` of the input block, the modulation row and
    column `o` of the weight. -/
theorem stored_apply (yr : Vec Ideal S1x1024 .f32) (w : Vec Ideal S1024x1024 .f32) (xb : Vec Ideal S1x1024x1024 .f32)
    (u : Fin 1) (s o : Fin 1024) :
    k0_pay1 (F := Ideal) yr w xb (ix3 u s o)
      = entry (fun k => xb (ix3 (0 : Fin 1) s k)) (fun k => yr (ix2 (0 : Fin 1) k)) (fun k => w (ix2 k o)) := by
  unfold k0_pay1
  simp only [shapeCast_ab_1ab_apply, mulf_apply, main_product_apply, norm_product_apply, broadcastTo_1b_ab_apply,
    shapeCast_1ab_ab_apply, shapeCast_a_1a_apply, shapeCast_1a_a_apply, addf_apply, broadcast_apply, rsqrt_apply, entry]
  rfl

end Cert.ModLinear.Body

end
-- ==== Proof.Blocks.lean ====
/-
  From the blocks to the whole result array.

  The grid has one point per batch `t`. At point `t` the input window holds block `t` of `x` (all rows and features of
  batch `t`), the modulation and weight windows hold their whole arrays, the body's modulation load reads row `t`, and
  the output window's block is block `t` of the result. So what point `t` writes back is block `t` of `modulated` of
  the three arrays: entry `(0, s, o)` of the block is `entry` of row `(t, s)` of `x`, row `t` of `y` and column `o` of
  `w`. The 32 blocks tile the result array (index `(b, s, o)` lies in block `b`), so the array ends holding `modulated`.
-/
import proofs.«125575_j39444979646820_2_alg».proof.Proof.Gen.KernelIdeal.Value
import proofs.«125575_j39444979646820_2_alg».proof.Proof.Stored
import proofs.«125575_j39444979646820_2_alg».proof.Proof.Payload
import proofs.«125575_j39444979646820_2_alg».proof.Proof.Spec

noncomputable section

namespace Cert.ModLinear.Kernel

open Cert.KernelIdeal Cert.KernelIdeal.Gen Idealize.ShloMosaic Idealize.ShloMosaic.TcCoe Idealize.SL.Sem
open Idealize.ShloMosaic.ValueIdx Cert.ModLinear Cert.ModLinear.Body
open Idealize.ShloMosaic.Pipeline (Dat)

variable (m : (ℓ : Loc nD τ sig) → Buf (Elt Ideal) ℓ) (ρ : Dev nD → PrngReg)

/-- The printed index maps, decided over the 32 grid points: the input's and the output's block index is `(t, 0, 0)`,
    the modulation's and the weight's is `(0, 0)`, and the one grid coordinate of point `t` is `t`. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ ((grid0.coords t) 0).val = t.val :=
  (by decide +kernel : ∀ t : Fin grid0.N, _)

/-- The input window's block at point `t`, at `(0, s, k)`, is `x` at `(t, s, k)`. -/
theorem input_block_apply (c : Dev nD) (t : Fin cfg0.N) (b : Fin 32) (hb : b.val = t.val) (s k : Fin 1024) :
    (iblk m c 0 t : Vec Ideal S1x1024x1024 .f32) (ix3 (0 : Fin 1) s k)
      = (V m c main_arg0 : S32x1024x1024.Idx → EReal) (ix3 b s k) := by
  obtain ⟨e0, e1, e2, -⟩ := index_facts t
  unfold iblk
  rw [View.read_apply]
  show V m c main_arg0 _ = V m c main_arg0 _
  refine congrArg (V m c main_arg0) ?_
  funext a
  apply Fin.ext
  match a with
  | ⟨0, _⟩ => show win0_0.index t (0 : Fin 3) * 1 + 1 * 0 = b.val; omega
  | ⟨1, _⟩ => show win0_0.index t (1 : Fin 3) * 1024 + 1 * s.val = s.val; omega
  | ⟨2, _⟩ => show win0_0.index t (2 : Fin 3) * 1024 + 1 * k.val = k.val; omega

/-- The weight window's block at any point is the weight. -/
theorem weight_block_apply (c : Dev nD) (t : Fin cfg0.N) (k o : Fin 1024) :
    (iblk m c 2 t : Vec Ideal S1024x1024 .f32) (ix2 k o) = (V m c main_arg2 : S1024x1024.Idx → EReal) (ix2 k o) := by
  obtain ⟨-, -, -, -, -, e0, e1, -⟩ := index_facts t
  unfold iblk
  rw [View.read_apply]
  show V m c main_arg2 _ = V m c main_arg2 _
  refine congrArg (V m c main_arg2) ?_
  funext a
  apply Fin.ext
  match a with
  | ⟨0, _⟩ => show win0_2.index t (0 : Fin 2) * 1024 + 1 * k.val = k.val; omega
  | ⟨1, _⟩ => show win0_2.index t (1 : Fin 2) * 1024 + 1 * o.val = o.val; omega

/-- The row the body loads from the modulation window's block at point `t` is row `t` of `y`. -/
theorem modulation_row_apply (c : Dev nD) (t : Fin cfg0.N) (b : Fin 32) (hb : b.val = t.val) (u : Fin 1) (k : Fin 1024) :
    View.ld (iblk m c 1 t : Vec Ideal S32x1024 .f32) (rowRect (grid0.coords t)) (ix2 u k)
      = (V m c main_arg1 : S32x1024.Idx → EReal) (ix2 b k) := by
  obtain ⟨-, -, -, e0, e1, -, -, -, -, -, eg⟩ := index_facts t
  have hoff := k0_off1_eq (grid0.coords t)
  unfold iblk
  show ((cfg0.win 1).blk t).view.read (Elt Ideal) (V m c main_arg1) ((rowRect (grid0.coords t)).idx (ix2 u k)) = _
  rw [View.read_apply]
  show V m c main_arg1 _ = V m c main_arg1 _
  refine congrArg (V m c main_arg1) ?_
  funext a
  apply Fin.ext
  have hu : u.val = 0 := by omega
  match a with
  | ⟨0, _⟩ =>
    show win0_1.index t (0 : Fin 2) * 32 + 1 * (k0_off1 (grid0.coords t) 0 + 1 * u.val) = b.val
    rw [hoff]; show win0_1.index t (0 : Fin 2) * 32 + 1 * (((grid0.coords t) 0).val + 1 * u.val) = b.val; omega
  | ⟨1, _⟩ =>
    show win0_1.index t (1 : Fin 2) * 1024 + 1 * (k0_off1 (grid0.coords t) 1 + 1 * k.val) = k.val
    rw [hoff]; show win0_1.index t (1 : Fin 2) * 1024 + 1 * (0 + 1 * k.val) = k.val; omega

/-- What point `t` writes back is block `t` of `modulated` of the three arrays as the region finds them. -/
theorem flushed_eq (c : Dev nD) (t : Fin cfg0.N) :
    (dats m 0 c).flushed 3 t
      = ((cfg0.win 3).blk t).view.read (Elt Ideal)
          (modulated (V m c main_arg0) (V m c main_arg1) (V m c main_arg2)) := by
  obtain ⟨-, -, -, -, -, -, -, e0, e1, e2, -⟩ := index_facts t
  rw [Cert.KernelIdeal.Value.flushed3_A, stored_eq]
  funext j
  obtain ⟨u, s, o, rfl⟩ : ∃ (u : Fin 1) (s o : Fin 1024), j = ix3 u s o := ⟨j 0, j 1, j 2, eq_ix3 j⟩
  have hu : u.val = 0 := by omega
  have ht : t.val < 32 := by have := t.isLt; have hN : cfg0.N = 32 := N_0; omega
  refine (stored_apply _ _ _ u s o).trans ?_
  show _ = modulated (V m c main_arg0) (V m c main_arg1) (V m c main_arg2) (((cfg0.win 3).blk t).view.emb (ix3 u s o))
  have hidx : ((cfg0.win 3).blk t).view.emb (ix3 u s o) = ix3 (⟨t.val, ht⟩ : Fin 32) s o := by
    funext a
    apply Fin.ext
    match a with
    | ⟨0, _⟩ => show win0_3.index t (0 : Fin 3) * 1 + 1 * u.val = t.val; omega
    | ⟨1, _⟩ => show win0_3.index t (1 : Fin 3) * 1024 + 1 * s.val = s.val; omega
    | ⟨2, _⟩ => show win0_3.index t (2 : Fin 3) * 1024 + 1 * o.val = o.val; omega
  rw [hidx, modulated_apply]
  simp only [input_block_apply m c t ⟨t.val, ht⟩ rfl, weight_block_apply m c t,
    modulation_row_apply m c t ⟨t.val, ht⟩ rfl]

/-- An index of the result array is in point `t`'s block iff its batch coordinate is `t`. -/
theorem mem_block (t : Fin cfg0.N) (i : S32x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0).slice (win0_3.rect t)).set ↔ _
  rw [View.set_slice_whole, Rect.mem_set_unit]
  exact Iff.rfl

/-- Every index of the result array lies in the block of the point numbered by its batch coordinate. -/
theorem covered (i : S32x1024x1024.Idx) :
    ∃ t : Fin cfg0.N, (cfg0.win 3).flush t = true ∧ i ∈ ((cfg0.win 3).blk t).view.set := by
  have hi0 : (i 0).val < 32 := (i 0).isLt
  have hi1 : (i 1).val < 1024 := (i 1).isLt
  have hi2 : (i 2).val < 1024 := (i 2).isLt
  have hN : cfg0.N = 32 := N_0
  obtain ⟨t, ht⟩ : ∃ t : Fin cfg0.N, t.val = (i 0).val := ⟨⟨(i 0).val, by omega⟩, rfl⟩
  refine ⟨t, flush0_3 t, ?_⟩
  rw [mem_block]
  obtain ⟨-, -, -, -, -, -, -, e0, e1, e2, -⟩ := index_facts t
  intro a
  match a with
  | ⟨0, _⟩ =>
    show win0_3.index t (0 : Fin 3) * 1 ≤ (i 0).val ∧ (i 0).val < win0_3.index t (0 : Fin 3) * 1 + 1; omega
  | ⟨1, _⟩ =>
    show win0_3.index t (1 : Fin 3) * 1024 ≤ (i 1).val ∧ (i 1).val < win0_3.index t (1 : Fin 3) * 1024 + 1024; omega
  | ⟨2, _⟩ =>
    show win0_3.index t (2 : Fin 3) * 1024 ≤ (i 2).val ∧ (i 2).val < win0_3.index t (2 : Fin 3) * 1024 + 1024; omega

/-- The result array after the run is `modulated` of the argument arrays. -/
theorem final (c : Dev nD) :
    (dats m 0 c).arrAt 3 cfg0.N
      = modulated (m ((c : Thread nD τ).loc main_arg0)) (m ((c : Thread nD τ).loc main_arg1))
          (m ((c : Thread nD τ).loc main_arg2)) :=
  (dats m 0 c).arrAt_eq_of_cover 3 _ (fun t _ => flushed_eq m c t) covered

/-- The kernel's run: every weakly fair execution terminates with the result array at `modulated` of the argument
    arrays and the arguments unchanged. -/
theorem run : θ_run defs (onTc (τ := τ) (main (F := Ideal))) ⟨m, fun _ => 0, ρ⟩ fun r => ∀ c : Dev nD,
      r.2.mem ((c : Thread nD τ).loc main_v0)
        = modulated (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.ModLinear.Kernel

end
-- ==== Proof.RefValue.lean ====
/-
  The reference, read entry by entry.

  The reference scales `y` by `c`, forms `∑ₖ (y[b,k]·c)² · w[k,o]²` by a matrix product of the squared arrays, adds
  `ε` and takes the reciprocal square root; it multiplies `x` by the scaled `y` broadcast over rows, contracts
  with `w` over the feature axis, and multiplies by the demodulation factor broadcast over rows. At entry
  `(b, s, o)` the broadcasts read `(b, k)` of the scaled `y` and `(b, o)` of the factor, and the two contractions
  run over `k` with left index `(b, s, k)`, `(b, k)` and right index `(k, o)`: this is `entry` of row `(b, s)` of
  `x`, row `b` of `y` and column `o` of `w`.
-/
import proofs.«125575_j39444979646820_2_alg».proof.Proof.Gen.ReferenceIdeal.Read
import proofs.«125575_j39444979646820_2_alg».proof.Proof.Spec

noncomputable section

namespace Cert.ModLinear.Reference

open Cert.ReferenceIdeal Cert.ReferenceIdeal.Read Idealize.ShloMosaic Idealize.ShloMosaic.ValueIdx Cert.ModLinear

/-- The product's left operand at `(b, s, o)`, contraction index `k`, is read at `(b, s, k)`. -/
theorem left_product (b : Fin 32) (s o k : Fin 1024) : lidx_main_v11 (ix3 b s o) k = ix3 b s k :=
  funext fun a => Fin.ext (by match a with | ⟨0, _⟩ => rfl | ⟨1, _⟩ => rfl | ⟨2, _⟩ => rfl)

/-- The product's right operand is read at `(k, o)`. -/
theorem right_product (b : Fin 32) (s o k : Fin 1024) : ridx_main_v11 (ix3 b s o) k = ix2 k o :=
  funext fun a => Fin.ext (by match a with | ⟨0, _⟩ => rfl | ⟨1, _⟩ => rfl)

/-- The scaled modulation, broadcast over rows, is read at `(b, k)`. -/
theorem modulation_row (b : Fin 32) (s k : Fin 1024) : idx_main_v8 (idx_main_v9 (ix3 b s k)) = ix2 b k :=
  funext fun a => Fin.ext (by match a with | ⟨0, _⟩ => rfl | ⟨1, _⟩ => rfl)

/-- The demodulation factor, broadcast over rows, is read at `(b, o)`. -/
theorem factor_row (b : Fin 32) (s o : Fin 1024) : idx_main_v12 (idx_main_v13 (ix3 b s o)) = ix2 b o :=
  funext fun a => Fin.ext (by match a with | ⟨0, _⟩ => rfl | ⟨1, _⟩ => rfl)

/-- The squared modulation at `(b, o)`, contraction index `k`, is read at `(b, k)`. -/
theorem left_norm (b : Fin 32) (o k : Fin 1024) : lidx_main_v4 (ix2 b o) k = ix2 b k :=
  funext fun a => Fin.ext (by match a with | ⟨0, _⟩ => rfl | ⟨1, _⟩ => rfl)

/-- The squared weight is read at `(k, o)`. -/
theorem right_norm (b : Fin 32) (o k : Fin 1024) : ridx_main_v4 (ix2 b o) k = ix2 k o :=
  funext fun a => Fin.ext (by match a with | ⟨0, _⟩ => rfl | ⟨1, _⟩ => rfl)

/-- The reference's result is `modulated` of its three arguments. -/
theorem result_eq (x : FVec Ideal S32x1024x1024 .f32) (y : FVec Ideal S32x1024 .f32) (w : FVec Ideal S1024x1024 .f32) :
    val_main_v14 (F := Ideal) x y w = modulated x y w := by
  funext i
  obtain ⟨b, s, o, rfl⟩ : ∃ (b : Fin 32) (s o : Fin 1024), i = ix3 b s o := ⟨i 0, i 1, i 2, eq_ix3 i⟩
  rw [modulated_apply, val_main_v14_apply, val_main_v11_apply, val_main_v13_apply, val_main_v12_apply, factor_row,
    val_main_v7_apply, val_main_v6_apply, val_main_v4_apply, val_main_v5_apply, val_main_cst_0_apply]
  simp only [left_product, right_product, left_norm, right_norm, val_main_v10_apply, val_main_v9_apply,
    val_main_v8_apply, modulation_row, val_main_v2_apply, val_main_v3_apply, val_main_v1_apply, val_main_v0_apply,
    val_main_cst_apply, Ideal.mulf_def, Ideal.addf_def, Ideal.hostUnary_rsqrt_def, Ideal.ofBits_def]
  rfl

end Cert.ModLinear.Reference

end
-- ==== Proof.lean ====
/-
  The kernel computes a modulated and demodulated linear map, one batch per grid point: with `c = 1/32` and `ε` the
  float nearest `1e-8`,

      out[b, s, o] = (∑ₖ (x[b, s, k] · (y[b, k] · c)) · w[k, o])
                       · rsqrt ((∑ₖ ((y[b, k] · c) · (y[b, k] · c)) · (w[k, o] · w[k, o])) + ε).

  The reference computes the same expression for the whole batch at once, with the two contractions as matrix
  products of whole arrays and the row factors as broadcasts. Over the extended reals both are literally this
  expression, entry by entry (`Cert.ModLinear.modulated`): the kernel's matrix products into a zero accumulator and
  the reference's contractions are the same sums over `k`, the kernel's and the reference's reciprocal square root are
  one function, and both carry the same two float words for `c` and `ε`. No algebraic law is needed, so the
  finiteness of the inputs is never used.

  The three frames are the generated frame runs (the reference's is its generated run with the result dropped); the
  idealization rewrote nothing, so `preserves` is trivial; `algebraic` sets the kernel's run (the result array read
  block by block, `Cert.ModLinear.Kernel.run`) beside the reference's run read entry by entry
  (`Cert.ModLinear.Reference.result_eq`).
-/
import proofs.«125575_j39444979646820_2_alg».proof.Defs
import proofs.«125575_j39444979646820_2_alg».proof.Proof.Gen.Kernel
import proofs.«125575_j39444979646820_2_alg».proof.Proof.Gen.Kernel.Frame
import proofs.«125575_j39444979646820_2_alg».proof.Proof.Gen.KernelIdeal
import proofs.«125575_j39444979646820_2_alg».proof.Proof.Gen.KernelIdeal.Frame
import proofs.«125575_j39444979646820_2_alg».proof.Proof.Gen.KernelIdeal.Value
import proofs.«125575_j39444979646820_2_alg».proof.Proof.Gen.ReferenceIdeal
import proofs.«125575_j39444979646820_2_alg».proof.Proof.Gen.ReferenceIdeal.Run
import proofs.«125575_j39444979646820_2_alg».proof.Proof.Gen.ReferenceIdeal.Read
import proofs.«125575_j39444979646820_2_alg».proof.Proof.Gen.Pre_finite_inputs
import proofs.«125575_j39444979646820_2_alg».proof.Proof.Blocks
import proofs.«125575_j39444979646820_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the kernel's result array and the reference's result both end at
    `modulated` of the arguments. -/
theorem algebraic : Cert.algebraic_KernelIdeal_ReferenceIdeal := by
  intro m ρ m' ρ' _ hagree
  refine ⟨_, Cert.ModLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ModLinear.Reference.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
